-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S128x64 : Shape := ⟨2, ![128, 64]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S16384x128 .f32) (main_arg1 : FVec F S128x64 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  main_v8
-- ==== Kernel.lean ====
abbrev S16384x128 : Shape := ⟨2, ![16384, 128]⟩
abbrev S128x64 : Shape := ⟨2, ![128, 64]⟩
abbrev S128x128 : Shape := ⟨2, ![128, 128]⟩
abbrev S16384x64 : Shape := ⟨2, ![16384, 64]⟩
abbrev S2048x128 : Shape := ⟨2, ![2048, 128]⟩

abbrev nBuf : Space → Nat
  | .hbm => 6
  | .vmem => 5
  | .smem => 0
  | _ => 0

abbrev bufTy : (tb : Table) → Fin (tcTables nBuf tb) → BufTy
  | .hbm, ⟨0, _⟩ => ⟨S16384x128, .f32⟩
  | .hbm, ⟨1, _⟩ => ⟨S128x64, .f32⟩
  | .hbm, ⟨2, _⟩ => ⟨S128x128, .f32⟩
  | .hbm, ⟨3, _⟩ => ⟨S128x128, .bf16⟩
  | .hbm, ⟨4, _⟩ => ⟨S16384x128, .f32⟩
  | .hbm, ⟨5, _⟩ => ⟨S16384x64, .f32⟩
  | .local _ .vmem, ⟨0, _⟩ => ⟨S2048x128, .f32⟩
  | .local _ .vmem, ⟨1, _⟩ => ⟨S2048x128, .f32⟩
  | .local _ .vmem, ⟨2, _⟩ => ⟨S128x128, .bf16⟩
  | .local _ .vmem, ⟨3, _⟩ => ⟨S2048x128, .f32⟩
  | .local _ .vmem, ⟨4, _⟩ => ⟨S2048x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S128x64_S128x64_S128x128_d1 : Shape.Concatenates [S128x64, S128x64] S128x128 1
  bitsLt_bf16_f32 : FTy.bits .bf16 < FTy.bits .f32
  slices_S16384x128_S16384x64_0_0 : S16384x128.Slices ![0, 0] S16384x64
  inb_S2048x128_S2048x128_0_0 : ∀ a, (![0, 0] : Fin 2 → Nat) a + S2048x128.size a ≤ S2048x128.size a
  h_S2048x128 : 0 < S2048x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x128 : Shape := ⟨2, ![16384, 128]⟩
abbrev S128x64 : Shape := ⟨2, ![128, 64]⟩
abbrev S16384x64 : Shape := ⟨2, ![16384, 64]⟩

abbrev nBuf : Space → Nat
  | .hbm => 3
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128x64, .f32⟩
  | .hbm, ⟨2, _⟩ => ⟨S16384x64, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S16384x128_S128x64_S16384x64_1_0_0_1_n_n_wf : DotDims.WF S16384x128 S128x64 S16384x64 [1] [0] [0] [1] [] []

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf

class Facts : Prop extends Facts₀ where

variable [Facts]
-- ==== Proof.Product.lean ====
import Idealize.ShloMosaic.PureOps.Ideal
import Idealize.ShloMosaic.Lib.ValueIdx

/-!
# Rows times weights, element by element

Both programs compute one matrix product over the extended reals: a matrix of rows `x : [M, K]` times a matrix of
weights `w : [K, N]`, whose element at `(r, j)` is `∑ k, x[r, k] · w[k, j]`. This module states that function once,
for any extents, and the one fact that joins the two programs: a product with a wider matrix of weights, read in its
first `N` columns, is the product with the weights those columns hold. Column `j` of a product depends on column `j`
of the weights only, so nothing about the other columns enters, and no finiteness is needed: the two sums have equal
terms.
-/

noncomputable section

open scoped BigOperators

namespace Cert.Product

open Idealize.ShloMosaic Idealize.ShloMosaic.ValueIdx

/-- `x · w` at `(r, j)`: the sum over `k` of `x[r, k] · w[k, j]`. -/
def rowsByWeights {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- The same with the index given by its coordinates. -/
theorem rowsByWeights_apply {M K N : Nat} (x : (⟨2, ![M, K]⟩ : Shape).Idx → EReal)
    (w : (⟨2, ![K, N]⟩ : Shape).Idx → EReal) (r : Fin M) (j : Fin N) :
    rowsByWeights x w (ix2 r j) = ∑ k : Fin K, x (ix2 r k) * w (ix2 k j) := rfl

/-- Column `j` of `x · w'` is column `j` of `x · w` as soon as column `j'` of `w'` is column `j` of `w`: the sums
    agree term by term. -/
theorem rowsByWeights_column {M K N N' : Nat} (x : (⟨2, ![M, K]⟩ : Shape).Idx → EReal)
    (w : (⟨2, ![K, N]⟩ : Shape).Idx → EReal) (w' : (⟨2, ![K, N']⟩ : Shape).Idx → EReal)
    (r : Fin M) (j : Fin N) (j' : Fin N') (hw : ∀ k : Fin K, w' (ix2 k j') = w (ix2 k j)) :
    rowsByWeights x w' (ix2 r j') = rowsByWeights x w (ix2 r j) := by
  rw [rowsByWeights_apply, rowsByWeights_apply]
  exact Finset.sum_congr rfl fun k _ => by rw [hw k]

end Cert.Product

end
-- ==== Proof.ReferenceProduct.lean ====
import proofs.«101516_g48696339202344_cont_8to1c4_755_20_alg».proof.Proof.Gen.ReferenceIdeal.Read
import proofs.«101516_g48696339202344_cont_8to1c4_755_20_alg».proof.Proof.Product

/-!
# The reference is the product

The reference is one `dot_general` of `x : [16384, 128]` and `W : [128, 64]` contracting the 128 inputs. Read at an
output index `(r, j)` over the extended reals it is `∑ k, x[r, k] · W[k, j]`: the generated reading of that operation
names the two operand indices, which are `(r, k)` and `(k, j)`.
-/

noncomputable section

open scoped BigOperators

namespace Cert.ReferenceIdeal.RefProduct

open Cert.ReferenceIdeal Cert.ReferenceIdeal.Read Idealize.ShloMosaic Idealize.ShloMosaic.ValueIdx Cert.Product

/-- The left operand's index at output `i` and contraction coordinate `k` is `(i 0, k)`. -/
theorem lidx_eq (i : S16384x64.Idx) (k : Fin 128) : lidx_main_v0 i k = ix2 (i 0) k :=
  funext fun a => Fin.ext (by match a with | ⟨0, _⟩ => rfl | ⟨1, _⟩ => rfl)

/-- The right operand's is `(k, i 1)`. -/
theorem ridx_eq (i : S16384x64.Idx) (k : Fin 128) : ridx_main_v0 i k = ix2 k (i 1) :=
  funext fun a => Fin.ext (by match a with | ⟨0, _⟩ => rfl | ⟨1, _⟩ => rfl)

/-- The reference's result is `x · W`. -/
theorem result_eq (x : S16384x128.Idx → EReal) (W : S128x64.Idx → EReal) :
    val_main_v0 (F := Ideal) x W = rowsByWeights x W := by
  funext i
  rw [val_main_v0_apply]
  unfold rowsByWeights
  simp only [lidx_eq, ridx_eq]
  rfl

end Cert.ReferenceIdeal.RefProduct

end
-- ==== Proof.LibPlainMatmul.lean ====
import Idealize.ShloMosaic.Lib.ValueIdx
import Idealize.ShloMosaic.PureOps.Ideal.Laws

/-!
# A plain matrix product read at an index

The product of a left operand `[M, K]` and a right operand `[K, N]` into a zero accumulator `[M, N]` — contracting the
left operand's axis 1 with the right operand's axis 0, no batch axis — has, over the extended reals, at `(p, q)` the
element `∑ k, l[p, k] · r[k, q]`: the contraction index is its one coordinate, the left operand's index at `(p, q)`
and `k` is `(p, k)`, the right operand's `(k, q)`.

The statement comes twice: for the record of dimension numbers written out with its well-formedness proof as an
argument (`…_lit`), and for an arbitrary record whose fields are fixed by equations (each `rfl` for a literal record).
-/

noncomputable section

open scoped BigOperators

namespace Idealize.ShloMosaic.PlainMatmul

open Idealize.ShloMosaic Idealize.ShloMosaic.ValueIdx

/-- The dimension numbers of a plain product: `[M, K] · [K, N] → [M, N]`. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- The plain product into the zero accumulator, at `(p, q)`, is `∑ k, l[p, k] · r[k, q]`. -/
theorem matmul_plain_lit {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ =>
        show ((plainDims M K N wf).lhsIdx (ix2 p q) _ 0).val = p.val
        unfold DotDims.lhsIdx
        rw [dif_neg (show ¬ (0 : Fin 2) ∈ (plainDims M K N wf).lhsBatch from List.not_mem_nil),
          dif_pos (show (0 : Fin 2) ∈ (plainDims M K N wf).lhsNonContracting from List.mem_singleton.mpr rfl)]
        rfl
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ =>
        show ((plainDims M K N wf).rhsIdx (ix2 p q) _ 1).val = q.val
        unfold DotDims.rhsIdx
        rw [dif_neg (show ¬ (1 : Fin 2) ∈ (plainDims M K N wf).rhsBatch from List.not_mem_nil),
          dif_pos (show (1 : Fin 2) ∈ (plainDims M K N wf).rhsNonContracting from List.mem_singleton.mpr rfl)]
        rfl)
  rw [el, er]

/-- The same for ANY record of dimension numbers of these shapes whose fields are those of a plain product. -/
theorem matmul_plain_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at hlc hrc hln hrn hlb hrb
  subst hlc hrc hln hrn hlb hrb
  exact matmul_plain_lit wf prec l r p q

end Idealize.ShloMosaic.PlainMatmul

end
-- ==== Proof.BlockProduct.lean ====
import proofs.«101516_g48696339202344_cont_8to1c4_755_20_alg».proof.Proof.Gen.KernelIdeal.Skeleton
import proofs.«101516_g48696339202344_cont_8to1c4_755_20_alg».proof.Proof.LibPlainMatmul
import Idealize.ShloMosaic.Lib.Pipeline.Value
import proofs.«101516_g48696339202344_cont_8to1c4_755_20_alg».proof.Proof.Product

/-!
# What the body stores is the product of its two blocks

At one grid point the body loads a block of 2048 rows `xb : [2048, 128]` and the whole matrix of doubled weights
`w2 : [128, 128]`, narrows the rows to bf16 — the identity on the extended reals —, casts the weights to the shape they
already have, and multiplies into a zero accumulator. So the one value it stores is, at `(p, q)`,
`∑ k, xb[p, k] · w2[k, q]`.
-/

noncomputable section

open scoped BigOperators

namespace Cert.KernelIdeal.BlockProduct

open Cert.KernelIdeal Cert.KernelIdeal.Gen Idealize.ShloMosaic Idealize.ShloMosaic.ValueIdx Cert.Product

/-- The stored value, at every index of the block, is the product of the loaded rows and the loaded weights. -/
theorem stored_eq (xb : Vec Ideal S2048x128 .f32) (w2 : Vec Ideal S128x128 .bf16) :
    k0_pay1 (F := Ideal) xb w2 = rowsByWeights xb w2 := by
  funext i
  obtain ⟨p, q, rfl⟩ : ∃ (p : Fin 2048) (q : Fin 128), i = ix2 p q := ⟨i 0, i 1, eq_ix2 i⟩
  unfold k0_pay1
  rw [shapeCast_self]
  refine (PlainMatmul.matmul_plain_apply dot_S2048x128_S128x128_S2048x128_1_0_0_1_n_n rfl rfl rfl rfl rfl rfl none
    (truncf .bf16 xb bitsLt_bf16_f32) w2 p q).trans ?_
  rfl

end Cert.KernelIdeal.BlockProduct

end
-- ==== Proof.WholeProduct.lean ====
import proofs.«101516_g48696339202344_cont_8to1c4_755_20_alg».proof.Proof.Gen.KernelIdeal.Frame
import Idealize.ShloMosaic.Lib.Pipeline.Value
import proofs.«101516_g48696339202344_cont_8to1c4_755_20_alg».proof.Proof.BlockProduct
import proofs.«101516_g48696339202344_cont_8to1c4_755_20_alg».proof.Proof.Product

/-!
# The region's result array is one product

The grid has 8 points. Point `t` is handed rows `2048 t … 2048 t + 2047` of the matrix of rows and, every time, the
whole matrix of doubled weights, and writes back rows `2048 t … 2048 t + 2047` of the result. By the block product
those written rows are the corresponding rows of `rows · weights`, a row of a product depending on the same row of the
left factor only. The 8 row blocks tile the 16384 rows (row `r` lies in block `r / 2048`), so after the run the whole
result array is `rows · weights`, both factors as the region finds them.
-/

noncomputable section

open scoped BigOperators

namespace Cert.KernelIdeal.WholeProduct

open Cert.KernelIdeal Cert.KernelIdeal.Gen Idealize.ShloMosaic Idealize.ShloMosaic.TcCoe Idealize.SL.Sem
open Idealize.ShloMosaic.ValueIdx Cert.Product
open Idealize.ShloMosaic.Pipeline (Dat)

variable (m : (ℓ : Loc nD τ sig) → Buf (Elt Ideal) ℓ)

/-- Every access of the body starts at the origin of its buffer. -/
theorem origin : (![0, 0] : Fin 2 → Nat) = fun _ => 0 := funext fun a => by fin_cases a <;> rfl

/-- The block each window is on at point `t`: row block `t` of the rows and of the result, the one block of the
    weights. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the rows' block at point `t` is row `2048 t + p` of the rows. -/
theorem rows_block (c : Dev nD) (t : Fin cfg0.N) (p : Fin 2048) (k : Fin 128) (r : Fin 16384)
    (hr : r.val = 2048 * t.val + p.val) :
    (iblk m c 0 t : Vec Ideal S2048x128 .f32) (ix2 p k) = (V m c main_arg0 : S16384x128.Idx → EReal) (ix2 r k) := by
  obtain ⟨e0, e1, -, -, -, -⟩ := block_indices t
  show (V m c main_arg0 : S16384x128.Idx → EReal) (((cfg0.win 0).blk t).view.emb (ix2 p k)) = _
  refine congrArg (V m c main_arg0 : S16384x128.Idx → EReal) ?_
  funext a; apply Fin.ext
  match a with
  | ⟨0, _⟩ => show win0_0.index t (0 : Fin 2) * 2048 + 1 * p.val = r.val; omega
  | ⟨1, _⟩ => show win0_0.index t (1 : Fin 2) * 128 + 1 * k.val = k.val; omega

/-- The weights' block at every point is the whole matrix of doubled weights. -/
theorem weights_block (c : Dev nD) (t : Fin cfg0.N) (k q : Fin 128) :
    (iblk m c 1 t : Vec Ideal S128x128 .bf16) (ix2 k q) = (V m c main_call0_v1 : S128x128.Idx → EReal) (ix2 k q) := by
  obtain ⟨-, -, e2, e3, -, -⟩ := block_indices t
  show (V m c main_call0_v1 : S128x128.Idx → EReal) (((cfg0.win 1).blk t).view.emb (ix2 k q)) = _
  refine congrArg (V m c main_call0_v1 : S128x128.Idx → EReal) ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- What point `t` writes back is rows `2048 t … 2048 t + 2047` of `rows · weights`. -/
theorem flushed_eq (c : Dev nD) (t : Fin cfg0.N) :
    (dats m 0 c).flushed 2 t = ((cfg0.win 2).blk t).view.read (Elt Ideal)
      (rowsByWeights (V m c main_arg0 : S16384x128.Idx → EReal) (V m c main_call0_v1 : S128x128.Idx → EReal)) := by
  show (cfg0.win 2).cut (grid0.coords t) ((dats m 0 c).after 2 t) = _
  rw [after0_2]
  unfold out0_2
  rw [View.canon_unit_zero origin]
  simp only [View.ld_unit_zero (S := S2048x128) origin, View.ld_unit_zero (S := S128x128) origin]
  rw [BlockProduct.stored_eq (iblk m c 0 t) (iblk m c 1 t)]
  obtain ⟨-, -, -, -, e4, e5⟩ := block_indices t
  funext j
  obtain ⟨p, q, rfl⟩ : ∃ (p : Fin 2048) (q : Fin 128), j = ix2 p q := ⟨j 0, j 1, eq_ix2 j⟩
  have hN : t.val < 8 := Nat.lt_of_lt_of_eq t.isLt (show cfg0.N = 8 from N_0)
  have hlt : 2048 * t.val + p.val < 16384 := by have := p.isLt; omega
  show rowsByWeights (iblk m c 0 t : Vec Ideal S2048x128 .f32) (iblk m c 1 t : Vec Ideal S128x128 .bf16) (ix2 p q)
    = rowsByWeights (V m c main_arg0 : S16384x128.Idx → EReal) (V m c main_call0_v1 : S128x128.Idx → EReal)
        (((cfg0.win 2).blk t).view.emb (ix2 p q))
  have hemb : ((cfg0.win 2).blk t).view.emb (ix2 p q) = ix2 (⟨2048 * t.val + p.val, hlt⟩ : Fin 16384) q := by
    funext a; apply Fin.ext
    match a with
    | ⟨0, _⟩ => show win0_2.index t (0 : Fin 2) * 2048 + 1 * p.val = 2048 * t.val + p.val; omega
    | ⟨1, _⟩ => show win0_2.index t (1 : Fin 2) * 128 + 1 * q.val = q.val; omega
  rw [hemb, rowsByWeights_apply, rowsByWeights_apply]
  exact Finset.sum_congr rfl fun k _ => by
    rw [rows_block m c t p k ⟨2048 * t.val + p.val, hlt⟩ rfl, weights_block m c t k q]

/-- An index of the result array is in point `t`'s block iff each coordinate is in the block's range on its axis. -/
theorem mem_block (t : Fin cfg0.N) (i : S16384x128.Idx) :
    i ∈ ((cfg0.win 2).blk t).view.set ↔ ∀ a : Fin 2, win0_2.index t a * S2048x128.size a ≤ (i a).val
      ∧ (i a).val < win0_2.index t a * S2048x128.size a + S2048x128.size a := by
  show i ∈ ((View.whole main_call0_v2).slice (win0_2.rect t)).set ↔ _
  rw [View.set_slice_whole, Rect.mem_set_unit]
  exact Iff.rfl

/-- Every index of the result array is written back by some point: row `r` by point `r / 2048`. -/
theorem covered (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  obtain ⟨t, ht⟩ : ∃ t : Fin cfg0.N, t.val = (i 0).val / 2048 :=
    ⟨⟨(i 0).val / 2048, by rw [show cfg0.N = 8 from N_0]; omega⟩, rfl⟩
  obtain ⟨-, -, -, -, e4, e5⟩ := block_indices t
  refine ⟨t, flush0_2 t, ?_⟩
  rw [mem_block]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 128 ≤ (i 1).val ∧ (i 1).val < win0_2.index t (1 : Fin 2) * 128 + 128
    omega

/-- The result array after the run is `rows · weights`, the factors as the region finds them. -/
theorem whole (c : Dev nD) :
    (dats m 0 c).arrAt 2 cfg0.N
      = rowsByWeights (V m c main_arg0 : S16384x128.Idx → EReal) (V m c main_call0_v1 : S128x128.Idx → EReal) :=
  (dats m 0 c).arrAt_eq_of_cover 2 _ (fun t _ => flushed_eq m c t) covered

end Cert.KernelIdeal.WholeProduct

end
-- ==== Proof.DoubledWeights.lean ====
import proofs.«101516_g48696339202344_cont_8to1c4_755_20_alg».proof.Proof.Gen.KernelIdeal.Frame
import Idealize.ShloMosaic.Lib.Pipeline.Value
import Idealize.ShloMosaic.Lib.StableHlo.Run
import Idealize.ShloMosaic.Lib.ValueIdx

/-!
# The weights the region is handed

Before the region the program lays two copies of the weights `W : [128, 64]` side by side into a `[128, 128]` matrix
and narrows it to bf16, which on the extended reals changes nothing. Read in a column `j < 64` — the left copy — that
matrix is `W` in column `j`. The right copy is never looked at: the program's result keeps the first 64 columns only.
-/

noncomputable section

namespace Cert.KernelIdeal.DoubledWeights

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The weights' array as the region finds it: `[W | W]`, narrowed. -/
theorem weights_entry (c : Dev nD) :
    (V m c main_call0_v1 : S128x128.Idx → EReal)
      = truncf (F := Ideal) .bf16 (concatenate S128x128 1
          [⟨S128x64, (m ((c : Thread nD τ).loc main_arg1) : S128x64.Idx → EReal)⟩,
           ⟨S128x64, (m ((c : Thread nD τ).loc main_arg1) : S128x64.Idx → EReal)⟩]
          concatenates_S128x64_S128x64_S128x128_d1) bitsLt_bf16_f32 := by
  show StableHlo.after hostOps0 (fun b => m (c, b)) (Proc.devRef .tc main_call0_v1) = _
  after_results
  rfl

/-- In a column of the left half it is `W` in that column. -/
theorem weights_left (c : Dev nD) (k : Fin 128) (j : Fin 64) (j' : Fin 128) (hj : j'.val = j.val) :
    (V m c main_call0_v1 : S128x128.Idx → EReal) (ix2 k j')
      = (m ((c : Thread nD τ).loc main_arg1) : S128x64.Idx → EReal) (ix2 k j) := by
  rw [weights_entry]
  show concatenate S128x128 1
      [⟨S128x64, (m ((c : Thread nD τ).loc main_arg1) : S128x64.Idx → EReal)⟩,
       ⟨S128x64, (m ((c : Thread nD τ).loc main_arg1) : S128x64.Idx → EReal)⟩]
      concatenates_S128x64_S128x64_S128x128_d1 (ix2 k j') = _
  exact concatenate_pair_apply_left (t := S128x128) (s₁ := S128x64) (s₂ := S128x64) (1 : Fin 2)
    (m ((c : Thread nD τ).loc main_arg1) : S128x64.Idx → EReal) (m ((c : Thread nD τ).loc main_arg1) : S128x64.Idx → EReal)
    concatenates_S128x64_S128x64_S128x128_d1 (ix2 k j') rfl (ix2 k j)
    (fun b => by match b with | ⟨0, _⟩ => rfl | ⟨1, _⟩ => exact hj.symm)

end Cert.KernelIdeal.DoubledWeights

end
-- ==== Proof.SlicedResult.lean ====
import proofs.«101516_g48696339202344_cont_8to1c4_755_20_alg».proof.Proof.Gen.KernelIdeal.Frame
import proofs.«101516_g48696339202344_cont_8to1c4_755_20_alg».proof.Proof.WholeProduct
import proofs.«101516_g48696339202344_cont_8to1c4_755_20_alg».proof.Proof.DoubledWeights
import Idealize.ShloMosaic.Lib.ValueLayout
import Idealize.ShloMosaic.Lib.StableHlo.Run

/-!
# The program's result is `x · W`

After the region the program keeps the first 64 columns of the region's `[16384, 128]` result array. That array is
`x · [W | W]` (the rows reach the region untouched; the weights are the doubled matrix), and column `j < 64` of a
product depends on column `j` of the right factor only, which is column `j` of `W`. So the program's result at
`(r, j)` is `∑ k, x[r, k] · W[k, j]`.
-/

noncomputable section

open scoped BigOperators

namespace Cert.KernelIdeal.SlicedResult

open Cert.KernelIdeal Cert.KernelIdeal.Gen Idealize.ShloMosaic Idealize.ShloMosaic.TcCoe Idealize.SL.Sem
open Idealize.ShloMosaic.ValueIdx Cert.Product
open Idealize.ShloMosaic.Pipeline (Dat)

variable (m : (ℓ : Loc nD τ sig) → Buf (Elt Ideal) ℓ) (ρ : Dev nD → PrngReg)

/-- The result buffer after the lines that follow the region: the left 64 columns of the region's result array. -/
theorem result_slice (c : Dev nD) :
    (Pipeline.afterTail₀ cfgs (dats m) 0 (V0 m) [hostOps1] c main_v0 : S16384x64.Idx → EReal)
      = extractStridedSlice S16384x64 ![0, 0]
          (rowsByWeights (V m c main_arg0 : S16384x128.Idx → EReal) (V m c main_call0_v1 : S128x128.Idx → EReal))
          slices_S16384x128_S16384x64_0_0 := by
  unfold Pipeline.afterTail₀
  show StableHlo.after hostOps1 _ (Proc.devRef .tc main_v0) = _
  after_results
  rw [(Pipeline.withArrays_arr spec0 launch0.win.arr_inj c _ _ 2).trans (WholeProduct.whole m c)]
  rfl

/-- The program's result is the product of the rows and the weights it was launched with. -/
theorem result_eq (c : Dev nD) :
    (Pipeline.afterTail₀ cfgs (dats m) 0 (V0 m) [hostOps1] c main_v0 : S16384x64.Idx → EReal)
      = rowsByWeights (m ((c : Thread nD τ).loc main_arg0) : S16384x128.Idx → EReal)
          (m ((c : Thread nD τ).loc main_arg1) : S128x64.Idx → EReal) := by
  rw [result_slice, V_main_arg0]
  funext i
  obtain ⟨r, j, rfl⟩ : ∃ (r : Fin 16384) (j : Fin 64), i = ix2 r j := ⟨i 0, i 1, eq_ix2 i⟩
  have hj : j.val < 128 := by have := j.isLt; omega
  refine (slice2_axis1_apply 0 _ slices_S16384x128_S16384x64_0_0 r j ⟨j.val, hj⟩ (Nat.zero_add _).symm).trans ?_
  exact rowsByWeights_column _ _ _ r j ⟨j.val, hj⟩ fun k => DoubledWeights.weights_left m c k j ⟨j.val, hj⟩ rfl

/-- Every weakly fair execution of the program ends with its result at `x · W` and its arguments as launched. -/
theorem run : θ_run defs (onTc (τ := τ) (main (F := Ideal))) ⟨m, fun _ => 0, ρ⟩ fun r => ∀ c : Dev nD,
      r.2.mem ((c : Thread nD τ).loc main_v0)
        = rowsByWeights (m ((c : Thread nD τ).loc main_arg0) : S16384x128.Idx → EReal)
            (m ((c : Thread nD τ).loc main_arg1) : S128x64.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v0 (Pipeline.mem_restRefs_of main_v0 (by decide) (by decide))).trans (result_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.SlicedResult

end
-- ==== Proof.lean ====
/-
  A dense layer without bias, `x · W` for `x : [16384, 128]` and `W : [128, 64]`, computed two ways.

  The kernel lays two copies of `W` side by side into `[W | W] : [128, 128]`, narrows it to bf16, and runs a grid of 8
  points; point `t` narrows rows `2048 t … 2048 t + 2047` of `x` to bf16, multiplies them by `[W | W]` into a zero
  accumulator and writes rows `2048 t … 2048 t + 2047` of a `[16384, 128]` array; the program then keeps the first 64
  columns. The reference is one `dot_general` of `x` and `W`.

  Over the extended reals a change of float format is the identity and both matrix products are plain sums, so:
  * a point's stored block is the product of its two loaded blocks (Proof/BlockProduct.lean);
  * the 8 row blocks tile the 16384 rows, and a row of a product depends on the same row of the left factor only, so the
    region's array is `x · [W | W]` (Proof/WholeProduct.lean);
  * column `j < 64` of `[W | W]` is column `j` of `W` (Proof/DoubledWeights.lean), and column `j` of a product depends on
    column `j` of the right factor only, so the kept columns are `x · W` (Proof/Product.lean, Proof/SlicedResult.lean);
  * the reference's element at `(r, j)` is `∑ k, x[r, k] · W[k, j]` (Proof/ReferenceProduct.lean).
  The two results are the same sum term by term: no algebraic law is used, so the finiteness of the inputs is never
  needed. The ideal pass rewrote nothing in the kernel, so the idealization claim is `True`. The three frames are the
  generated ones; the reference's is its generated run with the result forgotten.
-/
import proofs.«101516_g48696339202344_cont_8to1c4_755_20_alg».proof.Defs
import proofs.«101516_g48696339202344_cont_8to1c4_755_20_alg».proof.Proof.Gen.Kernel
import proofs.«101516_g48696339202344_cont_8to1c4_755_20_alg».proof.Proof.Gen.Kernel.Frame
import proofs.«101516_g48696339202344_cont_8to1c4_755_20_alg».proof.Proof.Gen.KernelIdeal
import proofs.«101516_g48696339202344_cont_8to1c4_755_20_alg».proof.Proof.Gen.KernelIdeal.Frame
import proofs.«101516_g48696339202344_cont_8to1c4_755_20_alg».proof.Proof.Gen.ReferenceIdeal
import proofs.«101516_g48696339202344_cont_8to1c4_755_20_alg».proof.Proof.Gen.Pre_finite_inputs
import proofs.«101516_g48696339202344_cont_8to1c4_755_20_alg».proof.Proof.Gen.ReferenceIdeal.Run
import proofs.«101516_g48696339202344_cont_8to1c4_755_20_alg».proof.Proof.Gen.ReferenceIdeal.Read
import proofs.«101516_g48696339202344_cont_8to1c4_755_20_alg».proof.Proof.ReferenceProduct
import proofs.«101516_g48696339202344_cont_8to1c4_755_20_alg».proof.Proof.SlicedResult
import Idealize.ShloMosaic.Adequacy
import Idealize.ShloMosaic.Init

noncomputable section

namespace Cert.Proof

open Idealize.ShloMosaic Idealize.ShloMosaic.TcCoe Idealize.SL.Sem Cert.Product

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- From memories that agree on `x` and `W`, both programs end with their result at `x · W`. -/
theorem algebraic : Cert.algebraic_KernelIdeal_ReferenceIdeal := by
  intro m ρ m' ρ' _ hagree
  refine ⟨fun c => rowsByWeights
      (m ((c : Thread Cert.KernelIdeal.nD Cert.KernelIdeal.τ).loc Cert.KernelIdeal.main_arg0) : Cert.KernelIdeal.S16384x128.Idx → EReal)
      (m ((c : Thread Cert.KernelIdeal.nD Cert.KernelIdeal.τ).loc Cert.KernelIdeal.main_arg1) : Cert.KernelIdeal.S128x64.Idx → EReal),
    Cert.KernelIdeal.SlicedResult.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefProduct.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
